-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x4096 : Shape := ⟨2, ![8192, 4096]⟩
abbrev S4096x2048 : Shape := ⟨2, ![4096, 2048]⟩
abbrev S4096x4096 : Shape := ⟨2, ![4096, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x2048 .f32) (main_arg1 : FVec F S8192x4096 .f32) (main_arg2 : FVec F S4096x2048 .f32) (main_arg3 : FVec F S4096x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x2048 : Shape := ⟨2, ![8192, 2048]⟩
abbrev S8192x4096 : Shape := ⟨2, ![8192, 4096]⟩
abbrev S4096x2048 : Shape := ⟨2, ![4096, 2048]⟩
abbrev S4096x4096 : Shape := ⟨2, ![4096, 4096]⟩
abbrev S1024x2048 : Shape := ⟨2, ![1024, 2048]⟩
abbrev S256x2048 : Shape := ⟨2, ![256, 2048]⟩
abbrev S1024x4096 : Shape := ⟨2, ![1024, 4096]⟩
abbrev S256x4096 : Shape := ⟨2, ![256, 4096]⟩
abbrev S1024x256 : Shape := ⟨2, ![1024, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096x2048, .f32⟩
  | .hbm, ⟨3, _⟩ => ⟨S4096x4096, .f32⟩
  | .hbm, ⟨4, _⟩ => ⟨S8192x2048, .bf16⟩
  | .hbm, ⟨5, _⟩ => ⟨S8192x4096, .bf16⟩
  | .hbm, ⟨6, _⟩ => ⟨S4096x2048, .bf16⟩
  | .hbm, ⟨7, _⟩ => ⟨S4096x4096, .bf16⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x4096, .bf16⟩
  | .local _ .vmem, ⟨5, _⟩ => ⟨S1024x4096, .bf16⟩
  | .local _ .vmem, ⟨6, _⟩ => ⟨S256x4096, .bf16⟩
  | .local _ .vmem, ⟨7, _⟩ => ⟨S256x4096, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x256_S1024x256_0_0 : ∀ a, (![0, 0] : Fin 2 → Nat) a + S1024x256.size a ≤ S1024x256.size a
  h_S1024x256 : 0 < S1024x256.numel
  dot_S1024x2048_S256x2048_S1024x256_1_1_0_0_n_n_wf : DotDims.WF S1024x2048 S256x2048 S1024x256 [1] [1] [0] [0] [] []
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S8192x4096.size a
  hwx0_2 : ∀ i : grid0.Coords, EltTy.bits .bf16 = 32 ∨ (Rect.block (s := S8192x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x4096.size a
  hwx0_4 : ∀ i : grid0.Coords, EltTy.bits .f32 = 32 ∨ (Rect.block (s := S8192x4096) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x4096.size a
  hwx0_5 : ∀ i : grid0.Coords, EltTy.bits .f32 = 32 ∨ (Rect.block (s := S8192x4096) S1024x256.size (cc0_transform_5 i) (hinb0_5 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x4096 : Shape := ⟨2, ![8192, 4096]⟩
abbrev S4096x2048 : Shape := ⟨2, ![4096, 2048]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096x2048, .f32⟩
  | .hbm, ⟨3, _⟩ => ⟨S4096x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x2048_S4096x2048_S8192x4096_1_1_0_0_n_n_wf : DotDims.WF S8192x2048 S4096x2048 S8192x4096 [1] [1] [0] [0] [] []
  dot_S8192x4096_S4096x4096_S8192x4096_1_1_0_0_n_n_wf : DotDims.WF S8192x4096 S4096x4096 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  One step of a leaky reservoir, as a function on the extended reals.

  For a batch of 8192 rows, an input of width 2048 and a reservoir of 4096 units, the new state at batch row `b` and
  unit `r` is

      keep · ps[b, r] + leak · tanh ( Σₖ x[b, k] · wi[r, k]  +  Σₖ ps[b, k] · wr[r, k] )

  where `x` is the input, `ps` the previous state, `wi` and `wr` the input and recurrent weights (both stored with the
  unit on the leading axis, so that each product contracts the trailing axes of its two factors), and `keep`, `leak`
  are the two binary32 numbers nearest 7/10 and 3/10. Nothing here is rounded: the sums are sums in the commutative
  monoid of the extended reals, so neither their order nor their grouping matters, and no entry needs to be finite.
-/
import Idealize.ShloMosaic.PureOps.Ideal
import Idealize.ShloMosaic.Lib.ValueIdx

noncomputable section

namespace Cert.Leaky

open Idealize.ShloMosaic Idealize.ShloMosaic.ValueIdx

/-- The fraction of the previous state that is kept: the binary32 number nearest 7/10. -/
abbrev keep : EReal := Ideal.ofBits .f32 0x3F333333#32

/-- The leak rate: the binary32 number nearest 3/10. -/
abbrev leak : EReal := Ideal.ofBits .f32 0x3E99999A#32

/-- What drives unit `r` on batch row `b`: the input row against the unit's input weights plus the previous state's row
    against the unit's recurrent weights, each a sum of products over the shared trailing axis. -/
def drive (x : (⟨2, ![8192, 2048]⟩ : Shape).Idx → EReal) (ps : (⟨2, ![8192, 4096]⟩ : Shape).Idx → EReal)
    (wi : (⟨2, ![4096, 2048]⟩ : Shape).Idx → EReal) (wr : (⟨2, ![4096, 4096]⟩ : Shape).Idx → EReal)
    (b : Fin 8192) (r : Fin 4096) : EReal :=
  (∑ k : Fin 2048, x (ix2 b k) * wi (ix2 r k)) + ∑ k : Fin 4096, ps (ix2 b k) * wr (ix2 r k)

/-- The new state, entry by entry: the kept part of the old entry plus the leak rate times the squashed drive. -/
def step (x : (⟨2, ![8192, 2048]⟩ : Shape).Idx → EReal) (ps : (⟨2, ![8192, 4096]⟩ : Shape).Idx → EReal)
    (wi : (⟨2, ![4096, 2048]⟩ : Shape).Idx → EReal) (wr : (⟨2, ![4096, 4096]⟩ : Shape).Idx → EReal) :
    (⟨2, ![8192, 4096]⟩ : Shape).Idx → EReal :=
  fun i => keep * ps i + leak * Ideal.tanh (drive x ps wi wr (i 0) (i 1))

end Cert.Leaky

end
-- ==== Proof.RefStep.lean ====
/-
  The reference computes the leaky step.

  Its eleven host operations, read at an index one after the other, are the step's formula as it stands: the two
  `dot_general`s contract the trailing axis of each operand, so entry `(b, r)` of the first is the sum over `k` of
  `x[b, k] · wi[r, k]` and of the second the sum of `ps[b, k] · wr[r, k]`; their sum goes through the host's hyperbolic
  tangent, which on the extended reals is the same function the step uses; and the two scalar constants, broadcast over
  the whole array, are the step's `keep` and `leak`.
-/
import proofs.«160057_j20993800143482_2_alg».proof.Proof.Gen.ReferenceIdeal.Read
import proofs.«160057_j20993800143482_2_alg».proof.Proof.Spec

noncomputable section

namespace Cert.Leaky.Ref

open Idealize.ShloMosaic Idealize.ShloMosaic.ValueIdx
open Cert.ReferenceIdeal Cert.ReferenceIdeal.Read

/-- The left factor of the first product sits on the output's row and the summation index. -/
theorem lidx0 (i : S8192x4096.Idx) (k : Fin 2048) : lidx_main_v0 i k = ix2 (i 0) k :=
  funext fun a => Fin.ext (by match a with | ⟨0, _⟩ => rfl | ⟨1, _⟩ => rfl)

/-- The right factor of the first product sits on the output's column and the summation index. -/
theorem ridx0 (i : S8192x4096.Idx) (k : Fin 2048) : ridx_main_v0 i k = ix2 (i 1) k :=
  funext fun a => Fin.ext (by match a with | ⟨0, _⟩ => rfl | ⟨1, _⟩ => rfl)

/-- The left factor of the second product sits on the output's row and the summation index. -/
theorem lidx1 (i : S8192x4096.Idx) (k : Fin 4096) : lidx_main_v1 i k = ix2 (i 0) k :=
  funext fun a => Fin.ext (by match a with | ⟨0, _⟩ => rfl | ⟨1, _⟩ => rfl)

/-- The right factor of the second product sits on the output's column and the summation index. -/
theorem ridx1 (i : S8192x4096.Idx) (k : Fin 4096) : ridx_main_v1 i k = ix2 (i 1) k :=
  funext fun a => Fin.ext (by match a with | ⟨0, _⟩ => rfl | ⟨1, _⟩ => rfl)

/-- The reference's last stage, as a function of the four arguments, is the leaky step. -/
theorem stage_eq_step (x0 : (⟨S8192x2048, .f32⟩ : BufTy).Contents (Elt Ideal)) (x1 : (⟨S8192x4096, .f32⟩ : BufTy).Contents (Elt Ideal))
    (x2 : (⟨S4096x2048, .f32⟩ : BufTy).Contents (Elt Ideal)) (x3 : (⟨S4096x4096, .f32⟩ : BufTy).Contents (Elt Ideal)) :
    val_main_v8 (F := Ideal) x0 x1 x2 x3 = Cert.Leaky.step x0 x1 x2 x3 := by
  funext i
  rw [val_main_v8_apply, val_main_v3_apply, val_main_v2_apply, val_main_cst_apply, val_main_v7_apply, val_main_v6_apply,
    val_main_cst_0_apply, val_main_v5_apply, val_main_v4_apply, val_main_v0_apply, val_main_v1_apply]
  simp only [lidx0, ridx0, lidx1, ridx1, Ideal.addf_def, Ideal.mulf_def, Ideal.hostUnary_tanh_def, Ideal.ofBits_def]
  rfl

end Cert.Leaky.Ref

end
-- ==== Proof.Payload.lean ====
/-
  What one grid point stores, entry by entry.

  The body loads a 1024-row slab of the input and of the previous state, a 256-unit slab of each weight matrix, and the
  matching [1024, 256] tile of the previous state. Each of its two matrix products starts from the zero splat and
  contracts the trailing axis of both operands, so entry `(p, q)` of the first is the sum over `k` of
  `a[p, k] · w[q, k]` and the same for the second; nothing else in the body moves an entry. The stored tile is
  therefore, at `(p, q)`, `keep · tile[p, q] + leak · tanh (Σₖ a[p, k] · w[q, k] + Σₖ s[p, k] · u[q, k])`.
-/
import proofs.«160057_j20993800143482_2_alg».proof.Proof.Gen.KernelIdeal.Skeleton
import proofs.«160057_j20993800143482_2_alg».proof.Proof.Spec
import Idealize.ShloMosaic.Lib.ValueIdx
import Idealize.ShloMosaic.Lib.Pipeline.Value
import Idealize.ShloMosaic.PureOps.Ideal.Laws

noncomputable section

namespace Cert.Leaky.Tile

open Idealize.ShloMosaic Idealize.ShloMosaic.ValueIdx
open Cert.KernelIdeal Cert.KernelIdeal.Gen

/-! ## The product of the input slab with the input-weight slab -/

theorem lhsA_row (i : S1024x256.Idx) (z : dot_S1024x2048_S256x2048_S1024x256_1_1_0_0_n_n.contr.Idx) :
    (dot_S1024x2048_S256x2048_S1024x256_1_1_0_0_n_n.lhsIdx i z 0).val = (i 0).val := by
  unfold DotDims.lhsIdx
  rw [dif_neg (show ¬(0 : Fin S1024x2048.rank) ∈ dot_S1024x2048_S256x2048_S1024x256_1_1_0_0_n_n.lhsBatch by decide),
    dif_pos (show (0 : Fin S1024x2048.rank) ∈ dot_S1024x2048_S256x2048_S1024x256_1_1_0_0_n_n.lhsNonContracting by decide)]
  rfl

theorem rhsA_row (i : S1024x256.Idx) (z : dot_S1024x2048_S256x2048_S1024x256_1_1_0_0_n_n.contr.Idx) :
    (dot_S1024x2048_S256x2048_S1024x256_1_1_0_0_n_n.rhsIdx i z 0).val = (i 1).val := by
  unfold DotDims.rhsIdx
  rw [dif_neg (show ¬(0 : Fin S256x2048.rank) ∈ dot_S1024x2048_S256x2048_S1024x256_1_1_0_0_n_n.rhsBatch by decide),
    dif_pos (show (0 : Fin S256x2048.rank) ∈ dot_S1024x2048_S256x2048_S1024x256_1_1_0_0_n_n.rhsNonContracting by decide)]
  rfl

/-- Entry `(p, q)` of the first product: row `p` of the left slab against row `q` of the right slab. -/
theorem prodA_apply (l : FVec Ideal S1024x2048 .bf16) (r : FVec Ideal S256x2048 .bf16) (p : Fin 1024) (q : Fin 256) :
    matmul dot_S1024x2048_S256x2048_S1024x256_1_1_0_0_n_n none l r (constant (F := Ideal) S1024x256 .f32 0x00000000#32) (ix2 p q)
      = ∑ k : Fin 2048, l (ix2 p k) * r (ix2 q k) := by
  simp only [matmul]
  rw [Ideal.matmul_constant_zero_apply,
    ← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 p q)
      ((contrEquiv1 dot_S1024x2048_S256x2048_S1024x256_1_1_0_0_n_n 2048 rfl rfl).symm k) = ix2 p k :=
    funext fun a => Fin.ext (by
      match a with
      | ⟨0, _⟩ => exact lhsA_row _ _
      | ⟨1, _⟩ => exact (dot_S1024x2048_S256x2048_S1024x256_1_1_0_0_n_n.lhsIdx_val_of_single rfl _ _).trans hk)
  have er : dot_S1024x2048_S256x2048_S1024x256_1_1_0_0_n_n.rhsIdx (ix2 p q)
      ((contrEquiv1 dot_S1024x2048_S256x2048_S1024x256_1_1_0_0_n_n 2048 rfl rfl).symm k) = ix2 q k :=
    funext fun a => Fin.ext (by
      match a with
      | ⟨0, _⟩ => exact rhsA_row _ _
      | ⟨1, _⟩ => exact (dot_S1024x2048_S256x2048_S1024x256_1_1_0_0_n_n.rhsIdx_val_of_single rfl _ _).trans hk)
  rw [el, er]

/-! ## The product of the state slab with the recurrent-weight slab -/

theorem lhsB_row (i : S1024x256.Idx) (z : dot_S1024x4096_S256x4096_S1024x256_1_1_0_0_n_n.contr.Idx) :
    (dot_S1024x4096_S256x4096_S1024x256_1_1_0_0_n_n.lhsIdx i z 0).val = (i 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl

theorem rhsB_row (i : S1024x256.Idx) (z : dot_S1024x4096_S256x4096_S1024x256_1_1_0_0_n_n.contr.Idx) :
    (dot_S1024x4096_S256x4096_S1024x256_1_1_0_0_n_n.rhsIdx i z 0).val = (i 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl

/-- Entry `(p, q)` of the second product: row `p` of the left slab against row `q` of the right slab. -/
theorem prodB_apply (l : FVec Ideal S1024x4096 .bf16) (r : FVec Ideal S256x4096 .bf16) (p : Fin 1024) (q : Fin 256) :
    matmul dot_S1024x4096_S256x4096_S1024x256_1_1_0_0_n_n none l r (constant (F := Ideal) S1024x256 .f32 0x00000000#32) (ix2 p q)
      = ∑ k : Fin 4096, l (ix2 p k) * r (ix2 q k) := by
  simp only [matmul]
  rw [Ideal.matmul_constant_zero_apply,
    ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q)
      ((contrEquiv1 dot_S1024x4096_S256x4096_S1024x256_1_1_0_0_n_n 4096 rfl rfl).symm k) = ix2 p k :=
    funext fun a => Fin.ext (by
      match a with
      | ⟨0, _⟩ => exact lhsB_row _ _
      | ⟨1, _⟩ => exact (dot_S1024x4096_S256x4096_S1024x256_1_1_0_0_n_n.lhsIdx_val_of_single rfl _ _).trans hk)
  have er : dot_S1024x4096_S256x4096_S1024x256_1_1_0_0_n_n.rhsIdx (ix2 p q)
      ((contrEquiv1 dot_S1024x4096_S256x4096_S1024x256_1_1_0_0_n_n 4096 rfl rfl).symm k) = ix2 q k :=
    funext fun a => Fin.ext (by
      match a with
      | ⟨0, _⟩ => exact rhsB_row _ _
      | ⟨1, _⟩ => exact (dot_S1024x4096_S256x4096_S1024x256_1_1_0_0_n_n.rhsIdx_val_of_single rfl _ _).trans hk)
  rw [el, er]

/-! ## The stored tile -/

/-- Entry `(p, q)` of the tile a grid point stores, from its five loaded blocks. -/
theorem stored_apply (a : Vec Ideal S1024x2048 .bf16) (w : Vec Ideal S256x2048 .bf16) (s : Vec Ideal S1024x4096 .bf16)
    (u : Vec Ideal S256x4096 .bf16) (old : Vec Ideal S1024x256 .f32) (p : Fin 1024) (q : Fin 256) :
    k0_pay1 (F := Ideal) a w s u old (ix2 p q)
      = Cert.Leaky.keep * old (ix2 p q) + Cert.Leaky.leak * Ideal.tanh
          ((∑ k : Fin 2048, a (ix2 p k) * w (ix2 q k)) + ∑ k : Fin 4096, s (ix2 p k) * u (ix2 q k)) := by
  unfold k0_pay1
  simp only [shapeCast_self]
  show (Ideal.ofBits .f32 0x3F333333#32 : EReal) * old (ix2 p q) + (Ideal.ofBits .f32 0x3E99999A#32 : EReal) * Ideal.tanh
      (matmul dot_S1024x2048_S256x2048_S1024x256_1_1_0_0_n_n none a w (constant (F := Ideal) S1024x256 .f32 0x00000000#32) (ix2 p q)
        + matmul dot_S1024x4096_S256x4096_S1024x256_1_1_0_0_n_n none s u (constant (F := Ideal) S1024x256 .f32 0x00000000#32) (ix2 p q)) = _
  rw [prodA_apply, prodB_apply]

end Cert.Leaky.Tile

end
-- ==== Proof.Tiles.lean ====
/-
  From tiles to the whole state.

  The kernel's grid has 8 × 16 points. Point `(bi, rj)` reads rows `1024·bi … 1024·bi + 1023` of the input and of
  the previous state (all their columns), rows `256·rj … 256·rj + 255` of the two weight matrices (all their
  columns), and the [1024, 256] tile of the previous state at block `(bi, rj)`; it writes the tile of the result at
  block `(bi, rj)`. The four arrays the products read are the arguments after a change of float format, which on the
  extended reals changes nothing. So entry `(p, q)` of the tile the point writes is the leaky step at array entry
  `(1024·bi + p, 256·rj + q)`, and since the 128 tiles cover the [8192, 4096] array, the array ends holding the leaky
  step of the arguments everywhere.
-/
import proofs.«160057_j20993800143482_2_alg».proof.Proof.Gen.KernelIdeal.Value
import proofs.«160057_j20993800143482_2_alg».proof.Proof.Payload
import proofs.«160057_j20993800143482_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Leaky.Whole

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds -/

/-- The input in the narrower format is the input. -/
theorem found_x (c : Dev nD) : (V m c main_v0 : S8192x2048.Idx → EReal) = (m ((c : Thread nD τ).loc main_arg0) : S8192x2048.Idx → EReal) := by
  dsimp only [Gen.V, Gen.hostOps0]; after_results; rfl

/-- The previous state in the narrower format is the previous state. -/
theorem found_ps (c : Dev nD) : (V m c main_v1 : S8192x4096.Idx → EReal) = (m ((c : Thread nD τ).loc main_arg1) : S8192x4096.Idx → EReal) := by
  dsimp only [Gen.V, Gen.hostOps0]; after_results; rfl

/-- The input weights in the narrower format are the input weights. -/
theorem found_wi (c : Dev nD) : (V m c main_v2 : S4096x2048.Idx → EReal) = (m ((c : Thread nD τ).loc main_arg2) : S4096x2048.Idx → EReal) := by
  dsimp only [Gen.V, Gen.hostOps0]; after_results; rfl

/-- The recurrent weights in the narrower format are the recurrent weights. -/
theorem found_wr (c : Dev nD) : (V m c main_v3 : S4096x4096.Idx → EReal) = (m ((c : Thread nD τ).loc main_arg3) : S4096x4096.Idx → EReal) := by
  dsimp only [Gen.V, Gen.hostOps0]; after_results; rfl

/-! ## Where each window's block sits -/

/-- Decided over the 128 grid points: the row slabs follow the output tile's block row, the weight slabs its block
    column, the old tile the tile itself; a slab spans all its columns; and the tile's block indices are below 8 and 16. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (0 : Fin 2) ∧ win0_4.index t (1 : Fin 2) = win0_5.index t (1 : Fin 2)
    ∧ win0_5.index t (0 : Fin 2) ≤ 7 ∧ win0_5.index t (1 : Fin 2) ≤ 15 :=
  (by decide +kernel : ∀ t : Fin grid0.N, _)

/-- Every tile of the 8 × 16 tiling is some point's. -/
theorem every_tile : ∀ (q0 : Fin 8) (q1 : Fin 16), ∃ t : Fin cfg0.N, win0_5.index t = ![q0.val, q1.val] :=
  (by decide +kernel : ∀ (q0 : Fin 8) (q1 : Fin 16), ∃ t : Fin grid0.N, win0_5.index t = ![q0.val, q1.val])

/-! ## The blocks, read at an entry -/

/-- Row `p` of the input slab at point `t` is row `b` of the input, `b` the slab's first row plus `p`. -/
theorem slab_x (c : Dev nD) (t : Fin cfg0.N) (p : Fin 1024) (k : Fin 2048) (b : Fin 8192)
    (hb : b.val = win0_5.index t (0 : Fin 2) * 1024 + p.val) :
    (iblk m c 0 t : Vec Ideal S1024x2048 .bf16) (ix2 p k) = (m ((c : Thread nD τ).loc main_arg0) : S8192x2048.Idx → EReal) (ix2 b k) := by
  obtain ⟨e00, e01, -⟩ := block_indices t
  unfold iblk
  rw [View.read_apply]
  show V m c main_v0 (((cfg0.win 0).blk t).view.emb (ix2 p k)) = _
  rw [found_x]
  refine congrArg _ (funext fun a => Fin.ext ?_)
  match a with
  | ⟨0, _⟩ => show win0_0.index t (0 : Fin 2) * 1024 + 1 * p.val = b.val; omega
  | ⟨1, _⟩ => show win0_0.index t (1 : Fin 2) * 2048 + 1 * k.val = k.val; omega

/-- Row `q` of the input-weight slab at point `t` is row `r` of the input weights. -/
theorem slab_wi (c : Dev nD) (t : Fin cfg0.N) (q : Fin 256) (k : Fin 2048) (r : Fin 4096)
    (hr : r.val = win0_5.index t (1 : Fin 2) * 256 + q.val) :
    (iblk m c 1 t : Vec Ideal S256x2048 .bf16) (ix2 q k) = (m ((c : Thread nD τ).loc main_arg2) : S4096x2048.Idx → EReal) (ix2 r k) := by
  obtain ⟨-, -, e10, e11, -⟩ := block_indices t
  unfold iblk
  rw [View.read_apply]
  show V m c main_v2 (((cfg0.win 1).blk t).view.emb (ix2 q k)) = _
  rw [found_wi]
  refine congrArg _ (funext fun a => Fin.ext ?_)
  match a with
  | ⟨0, _⟩ => show win0_1.index t (0 : Fin 2) * 256 + 1 * q.val = r.val; omega
  | ⟨1, _⟩ => show win0_1.index t (1 : Fin 2) * 2048 + 1 * k.val = k.val; omega

/-- Row `p` of the state slab at point `t` is row `b` of the previous state. -/
theorem slab_ps (c : Dev nD) (t : Fin cfg0.N) (p : Fin 1024) (k : Fin 4096) (b : Fin 8192)
    (hb : b.val = win0_5.index t (0 : Fin 2) * 1024 + p.val) :
    (iblk m c 2 t : Vec Ideal S1024x4096 .bf16) (ix2 p k) = (m ((c : Thread nD τ).loc main_arg1) : S8192x4096.Idx → EReal) (ix2 b k) := by
  obtain ⟨-, -, -, -, e20, e21, -⟩ := block_indices t
  unfold iblk
  rw [View.read_apply]
  show V m c main_v1 (((cfg0.win 2).blk t).view.emb (ix2 p k)) = _
  rw [found_ps]
  refine congrArg _ (funext fun a => Fin.ext ?_)
  match a with
  | ⟨0, _⟩ => show win0_2.index t (0 : Fin 2) * 1024 + 1 * p.val = b.val; omega
  | ⟨1, _⟩ => show win0_2.index t (1 : Fin 2) * 4096 + 1 * k.val = k.val; omega

/-- Row `q` of the recurrent-weight slab at point `t` is row `r` of the recurrent weights. -/
theorem slab_wr (c : Dev nD) (t : Fin cfg0.N) (q : Fin 256) (k : Fin 4096) (r : Fin 4096)
    (hr : r.val = win0_5.index t (1 : Fin 2) * 256 + q.val) :
    (iblk m c 3 t : Vec Ideal S256x4096 .bf16) (ix2 q k) = (m ((c : Thread nD τ).loc main_arg3) : S4096x4096.Idx → EReal) (ix2 r k) := by
  obtain ⟨-, -, -, -, -, -, e30, e31, -⟩ := block_indices t
  unfold iblk
  rw [View.read_apply]
  show V m c main_v3 (((cfg0.win 3).blk t).view.emb (ix2 q k)) = _
  rw [found_wr]
  refine congrArg _ (funext fun a => Fin.ext ?_)
  match a with
  | ⟨0, _⟩ => show win0_3.index t (0 : Fin 2) * 256 + 1 * q.val = r.val; omega
  | ⟨1, _⟩ => show win0_3.index t (1 : Fin 2) * 4096 + 1 * k.val = k.val; omega

/-- Entry `(p, q)` of the old tile at point `t` is the previous state at the entry the output tile has there. -/
theorem tile_ps (c : Dev nD) (t : Fin cfg0.N) (p : Fin 1024) (q : Fin 256) (i : S8192x4096.Idx)
    (h0 : (i 0).val = win0_5.index t (0 : Fin 2) * 1024 + p.val) (h1 : (i 1).val = win0_5.index t (1 : Fin 2) * 256 + q.val) :
    (iblk m c 4 t : Vec Ideal S1024x256 .f32) (ix2 p q) = (m ((c : Thread nD τ).loc main_arg1) : S8192x4096.Idx → EReal) i := by
  obtain ⟨-, -, -, -, -, -, -, -, e40, e41, -⟩ := block_indices t
  unfold iblk
  rw [View.read_apply]
  show V m c main_arg1 (((cfg0.win 4).blk t).view.emb (ix2 p q)) = _
  rw [V_main_arg1]
  refine congrArg _ (funext fun a => Fin.ext ?_)
  match a with
  | ⟨0, _⟩ => show win0_4.index t (0 : Fin 2) * 1024 + 1 * p.val = (i 0).val; omega
  | ⟨1, _⟩ => show win0_4.index t (1 : Fin 2) * 256 + 1 * q.val = (i 1).val; omega

/-! ## What the array ends holding -/

/-- The leaky step of the four arguments as launched. -/
abbrev result (c : Dev nD) : Buf (Elt Ideal) ((c : Thread nD τ).loc main_v4) :=
  Cert.Leaky.step (m ((c : Thread nD τ).loc main_arg0)) (m ((c : Thread nD τ).loc main_arg1))
    (m ((c : Thread nD τ).loc main_arg2)) (m ((c : Thread nD τ).loc main_arg3))

/-- What point `t` writes back is the tile of `result` at the point's block. -/
theorem written_eq (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S1024x2048) zero_offsets, View.ld_unit_zero (S := S256x2048) zero_offsets,
    View.ld_unit_zero (S := S1024x4096) zero_offsets, View.ld_unit_zero (S := S256x4096) zero_offsets,
    View.ld_unit_zero (S := S1024x256) zero_offsets]
  funext j
  obtain ⟨p, q, rfl⟩ : ∃ (p : Fin 1024) (q : Fin 256), j = ix2 p q := ⟨j 0, j 1, eq_ix2 j⟩
  show k0_pay1 (F := Ideal) (iblk m c 0 t) (iblk m c 1 t) (iblk m c 2 t) (iblk m c 3 t) (iblk m c 4 t) (ix2 p q)
    = result m c (((cfg0.win 5).blk t).view.emb (ix2 p q))
  refine (Cert.Leaky.Tile.stored_apply (iblk m c 0 t) (iblk m c 1 t) (iblk m c 2 t) (iblk m c 3 t) (iblk m c 4 t) p q).trans ?_
  have h0 : ((((cfg0.win 5).blk t).view.emb (ix2 p q)) 0).val = win0_5.index t (0 : Fin 2) * 1024 + p.val :=
    show win0_5.index t (0 : Fin 2) * 1024 + 1 * p.val = _ by omega
  have h1 : ((((cfg0.win 5).blk t).view.emb (ix2 p q)) 1).val = win0_5.index t (1 : Fin 2) * 256 + q.val :=
    show win0_5.index t (1 : Fin 2) * 256 + 1 * q.val = _ by omega
  exact congrArg₂ (· + ·)
    (congrArg (Cert.Leaky.keep * ·) (tile_ps m c t p q _ h0 h1))
    (congrArg (fun z => Cert.Leaky.leak * Ideal.tanh z) (congrArg₂ (· + ·)
      (Finset.sum_congr rfl fun k _ => congrArg₂ (· * ·) (slab_x m c t p k _ h0) (slab_wi m c t q k _ h1))
      (Finset.sum_congr rfl fun k _ => congrArg₂ (· * ·) (slab_ps m c t p k _ h0) (slab_wr m c t q k _ h1))))

/-- An entry is in point `t`'s tile iff each coordinate is in the tile's range on its axis. -/
theorem mem_tile (t : Fin cfg0.N) (i : S8192x4096.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v4).slice (win0_5.rect t)).set ↔ _
  rw [View.set_slice_whole, Rect.mem_set_unit]
  exact Iff.rfl

/-- Every entry of the array is in the tile of the point whose block row is `row / 1024` and block column `col / 256`. -/
theorem tiles_cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := every_tile ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_tile]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- After the last point the result array holds the leaky step of the arguments. -/
theorem final (c : Dev nD) : (dats m 0 c).arrAt 5 cfg0.N = result m c :=
  (dats m 0 c).arrAt_eq_of_cover 5 (result m c) (fun t _ => written_eq m c t) tiles_cover

/-- Every weakly fair execution of the kernel's program ends with the result array at the leaky step of the arguments
    and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Leaky.Whole

end
-- ==== Proof.lean ====
/-
  A leaky reservoir step computed tile by tile equals the same step computed whole.

  Both programs compute, for a batch of 8192 rows, an input of width 2048 and 4096 reservoir units,

      new[b, r] = keep · ps[b, r] + leak · tanh ( Σₖ x[b, k] · wi[r, k]  +  Σₖ ps[b, k] · wr[r, k] ),

  `keep` and `leak` the binary32 numbers nearest 7/10 and 3/10 (Proof/Spec.lean). The reference does it with two
  whole contractions on the host (Proof/RefStep.lean). The kernel first narrows the float format of the four
  arrays its products read — the identity on the extended reals — and then, over an 8 × 16 grid, computes each
  [1024, 256] tile of the result from a 1024-row slab of the input and of the previous state and a 256-row slab of
  each weight matrix (Proof/Payload.lean: the tile's entries; Proof/Tiles.lean: the slabs as rows of the arguments,
  and the 128 tiles covering the array). The two sides are the same sums of the same products, so the equality needs
  no algebra beyond reading both at an index, and it holds for all extended-real inputs: the finiteness of the inputs
  is never used.

  The idealized kernel is the kernel's own text read on the extended reals (no rewrite was applied), so the
  statement relating the two is empty. The three frames are the generated ones: the two kernels' from their frame
  certificates, the reference's from its run with the result dropped.
-/
import proofs.«160057_j20993800143482_2_alg».proof.Defs
import proofs.«160057_j20993800143482_2_alg».proof.Proof.Gen.Kernel
import proofs.«160057_j20993800143482_2_alg».proof.Proof.Gen.Kernel.Skeleton
import proofs.«160057_j20993800143482_2_alg».proof.Proof.Gen.Kernel.Launch
import proofs.«160057_j20993800143482_2_alg».proof.Proof.Gen.Kernel.Points
import proofs.«160057_j20993800143482_2_alg».proof.Proof.Gen.Kernel.Frame
import proofs.«160057_j20993800143482_2_alg».proof.Proof.Gen.KernelIdeal
import proofs.«160057_j20993800143482_2_alg».proof.Proof.Gen.KernelIdeal.Skeleton
import proofs.«160057_j20993800143482_2_alg».proof.Proof.Gen.KernelIdeal.Launch
import proofs.«160057_j20993800143482_2_alg».proof.Proof.Gen.KernelIdeal.Points
import proofs.«160057_j20993800143482_2_alg».proof.Proof.Gen.KernelIdeal.Frame
import proofs.«160057_j20993800143482_2_alg».proof.Proof.Gen.ReferenceIdeal
import proofs.«160057_j20993800143482_2_alg».proof.Proof.Gen.Pre_finite_inputs
import proofs.«160057_j20993800143482_2_alg».proof.Proof.Gen.KernelIdeal.Value
import proofs.«160057_j20993800143482_2_alg».proof.Proof.Gen.ReferenceIdeal.Run
import proofs.«160057_j20993800143482_2_alg».proof.Proof.Gen.ReferenceIdeal.Read
import proofs.«160057_j20993800143482_2_alg».proof.Proof.Spec
import proofs.«160057_j20993800143482_2_alg».proof.Proof.RefStep
import proofs.«160057_j20993800143482_2_alg».proof.Proof.Payload
import proofs.«160057_j20993800143482_2_alg».proof.Proof.Tiles
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- So does the reference: its run, with what it says about the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the four arguments, the kernel's result array ends at the leaky step of its arguments
    (tile by tile), the reference's at the leaky step of its own (stage by stage): one function of equal arguments. -/
theorem same_step : Cert.algebraic_KernelIdeal_ReferenceIdeal := by
  intro m ρ m' ρ' _ hagree
  refine ⟨fun c => Cert.Leaky.Whole.result m c, Cert.Leaky.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Leaky.Ref.stage_eq_step,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_step⟩

end Cert.Proof

end
